-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x16 : Shape := ⟨2, ![384, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x16 : S_.BroadcastsInDim S384x16 (![] : Fin 0 → Fin S384x16.rank)
  reducesTo_S384x16_S_d0_1 : S384x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S384x16 .f32) (main_arg9 : FVec F S16 .f32) (main_v33 : IVec S_ 1) : IVec S_ 1 :=
  let main_v34 : FVec F S384x16 .f32 := Host.absf main_arg8
  let main_cst_12 : FVec F S_ .f32 := constant S_ .f32 0x7F800000#32
  let main_v35 : FVec F S384x16 .f32 := broadcastInDim S384x16 ![] bcast_S_S384x16 main_cst_12
  let main_v36 : IVec S384x16 1 := cmpf .olt main_v34 main_v35
  let main_c_13 : IVec S_ 1 := constantI S_ 1 1#1
  let main_v37 : IVec S_ 1 := (fun x v => Host.reduce IntOp.andi x v reducesTo_S384x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S384x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x16 : Shape := ⟨2, ![384, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S128x16 : Shape := ⟨2, ![128, 16]⟩
abbrev S100000x16 : Shape := ⟨2, ![100000, 16]⟩
abbrev S1000x128 : Shape := ⟨2, ![1000, 128]⟩
abbrev S1000x1 : Shape := ⟨2, ![1000, 1]⟩
abbrev S1000x16 : Shape := ⟨2, ![1000, 16]⟩
abbrev S1x128 : Shape := ⟨2, ![1, 128]⟩
abbrev S1x16 : Shape := ⟨2, ![1, 16]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000, .f32⟩
  | .hbm, ⟨54, _⟩ => ⟨S100000x1, .f32⟩
  | .hbm, ⟨55, _⟩ => ⟨S128x16, .f32⟩
  | .hbm, ⟨56, _⟩ => ⟨S128x16, .f32⟩
  | .hbm, ⟨57, _⟩ => ⟨S128x16, .f32⟩
  | .hbm, ⟨58, _⟩ => ⟨S100000x16, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x16, .f32⟩
  | .local _ .vmem, ⟨17, _⟩ => ⟨S128x16, .f32⟩
  | .local _ .vmem, ⟨18, _⟩ => ⟨S128x16, .f32⟩
  | .local _ .vmem, ⟨19, _⟩ => ⟨S16, .f32⟩
  | .local _ .vmem, ⟨20, _⟩ => ⟨S1000x16, .f32⟩
  | .local _ .vmem, ⟨21, _⟩ => ⟨S1000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S100000_S100000x1 : S100000.ShapeCasts S100000x1
  slices_S384x16_S128x16_0_0 : S384x16.Slices ![0, 0] S128x16
  slices_S384x16_S128x16_128_0 : S384x16.Slices ![128, 0] S128x16
  slices_S384x16_S128x16_256_0 : S384x16.Slices ![256, 0] S128x16
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16_S16_0 : ∀ a, (![0] : Fin 1 → Nat) a + S16.size a ≤ S16.size a
  h_S16 : 0 < S16.numel
  shapeCasts_S16_S1x16 : S16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x16_S1000x16_1_0_0_1_n_n_wf : DotDims.WF S1000x128 S128x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S100000x1.size a
  hwx0_3 : ∀ i : grid0.Coords, EltTy.bits .f32 = 32 ∨ (Rect.block (s := S100000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S100000x1.size a
  hwx0_4 : ∀ i : grid0.Coords, EltTy.bits .f32 = 32 ∨ (Rect.block (s := S100000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x16.size a ≤ S128x16.size a
  hwx0_11 : ∀ i : grid0.Coords, EltTy.bits .f32 = 32 ∨ (Rect.block (s := S128x16) S128x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x16.size a ≤ S128x16.size a
  hwx0_12 : ∀ i : grid0.Coords, EltTy.bits .f32 = 32 ∨ (Rect.block (s := S128x16) S128x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x16.size a ≤ S128x16.size a
  hwx0_13 : ∀ i : grid0.Coords, EltTy.bits .f32 = 32 ∨ (Rect.block (s := S128x16) S128x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x16.size a ≤ S100000x16.size a
  hwx0_15 : ∀ i : grid0.Coords, EltTy.bits .f32 = 32 ∨ (Rect.block (s := S100000x16) S1000x16.size (cc0_transform_15 i) (hinb0_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S128x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v36) S128x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S128x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg9) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v38) S1000x16.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x16 : Shape := ⟨2, ![384, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩
abbrev S100000x384 : Shape := ⟨2, ![100000, 384]⟩
abbrev S100000x16 : Shape := ⟨2, ![100000, 16]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S100000x384, .f32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x16_S100000x16_1_0_0_1_n_n_wf : DotDims.WF S100000x384 S384x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x16_S100000x16_1_0_0_1_n_n : DotDims S100000x384 S384x16 S100000x16 where
  lhsContracting := [1]
  rhsContracting := [0]
  lhsNonContracting := [0]
  rhsNonContracting := [1]
  lhsBatch := []
  rhsBatch := []
  wf := dot_S100000x384_S384x16_S100000x16_1_0_0_1_n_n_wf

class Facts : Prop extends Facts₀ where

variable [Facts]
-- ==== Proof.HopSpec.lean ====
/-
  The network's output for one node, as a function of that node's rows.

  For one node the three branches are each a dense layer with a rectified output: branch value k is
  max (∑ₗ aₗ · W(l, k) + b(k), 0), where a is the node's own feature row (ego branch), or its aggregated one-hop row scaled by
  the inverse degree, or its aggregated two-hop row scaled by the squared inverse degree. The classifier is linear in the
  384 branch values laid side by side: output q is ∑ₖ hₖ · W(k, q) + c(q) over the 384 rows of the classifier matrix.
  Summing the three bands of 128 rows separately gives the same extended real — addition of extended reals is
  associative and commutative, infinities included — which is all that distinguishes a classifier applied to the joined
  branches from three partial products added up.
-/
import Mathlib.Data.EReal.Operations
import Mathlib.Algebra.BigOperators.Fin

noncomputable section

namespace Cert.HopSpec

open Finset

/-- One branch at one node: the rectified dense layer of the row `a`. -/
def hid (a : Fin 128 → EReal) (W : Fin 128 → Fin 128 → EReal) (b : Fin 128 → EReal) (k : Fin 128) : EReal :=
  max ((∑ l : Fin 128, a l * W l k) + b k) 0

/-- The classifier on three branches, as three partial products and the bias. -/
def rowOut (h0 h1 h2 : Fin 128 → EReal) (W0 W1 W2 : Fin 128 → Fin 16 → EReal) (c : Fin 16 → EReal) (q : Fin 16) : EReal :=
  (∑ k : Fin 128, h0 k * W0 k q) + (∑ k : Fin 128, h1 k * W1 k q) + (∑ k : Fin 128, h2 k * W2 k q) + c q

/-- A sum over 384 terms is the sum of its three bands of 128. -/
theorem sum_three_bands {M : Type*} [AddCommMonoid M] (f : Fin 384 → M) :
    ∑ k : Fin 384, f k
      = (∑ k : Fin 128, f ⟨k.val, by omega⟩) + (∑ k : Fin 128, f ⟨128 + k.val, by omega⟩)
        + (∑ k : Fin 128, f ⟨256 + k.val, by omega⟩) := by
  have e : ∑ k : Fin 384, f k = ∑ k : Fin (128 + 128 + 128), f (Fin.cast (by norm_num) k) :=
    (Fin.castOrderIso (by norm_num : 128 + 128 + 128 = 384)).toEquiv.sum_comp f |>.symm
  rw [e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

/-- The classifier applied to the three branches joined along their 384 columns is the three partial products added up:
    `J` is the joined row (its band b holds branch b), `W` the whole classifier matrix. -/
theorem joined_eq_rowOut (J : Fin 384 → EReal) (W : Fin 384 → Fin 16 → EReal) (h0 h1 h2 : Fin 128 → EReal)
    (c : Fin 16 → EReal) (q : Fin 16)
    (e0 : ∀ k : Fin 128, J ⟨k.val, by omega⟩ = h0 k) (e1 : ∀ k : Fin 128, J ⟨128 + k.val, by omega⟩ = h1 k)
    (e2 : ∀ k : Fin 128, J ⟨256 + k.val, by omega⟩ = h2 k) :
    (∑ k : Fin 384, J k * W k q) + c q
      = rowOut h0 h1 h2 (fun k q => W ⟨k.val, by omega⟩ q) (fun k q => W ⟨128 + k.val, by omega⟩ q)
          (fun k q => W ⟨256 + k.val, by omega⟩ q) c q := by
  unfold rowOut
  rw [sum_three_bands]
  simp only [e0, e1, e2]

end Cert.HopSpec

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.BodyValue.lean ====
/-
  What the kernel body computes for one node of its block, at the ideal values.

  The body holds a block of 1000 nodes. For node p of the block it forms three rectified dense layers — of the node's own
  row, of its one-hop row times its first scale, of its two-hop row times its second scale — and adds the three partial
  classifier products and the bias. Each matrix product is an exact sum over the contracted coordinate, a narrowing of
  format changes nothing, a bias row broadcast down the block reads the bias at the column, and a scale column broadcast
  across a row reads the node's one scale. So entry (p, q) of what the body stores depends on row p of the three feature
  blocks and on entry p of the two scale columns only.
-/
import proofs.«110596_j5342939316785_1_alg».proof.Proof.Gen.KernelIdeal.Skeleton
import proofs.«110596_j5342939316785_1_alg».proof.Proof.HopSpec
import proofs.«110596_j5342939316785_1_alg».proof.Proof.LibPlainDot
import proofs.«110596_j5342939316785_1_alg».proof.Proof.LibHostDot
import proofs.«110596_j5342939316785_1_alg».proof.Proof.LibLayout
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.HopSpec

/-- A 1000×128 by 128×128 product into the zero block, at an entry. -/
theorem dense_apply {φ₁ φ₂ : FTy} (x : FVec Ideal S1000x128 φ₁) (W : FVec Ideal S128x128 φ₂) (p : Fin 1000) (k : Fin 128) :
    matmul dot_S1000x128_S128x128_S1000x128_1_0_0_1_n_n none x W (constant (F := Ideal) S1000x128 .f32 0x00000000#32) (ix2 p k)
      = ∑ l : Fin 128, x (ix2 p l) * W (ix2 l k) :=
  Cert.PlainDot.matmul_zero_plain_apply none x W p k

/-- A 1000×128 by 128×16 product into the zero block, at an entry. -/
theorem cls_apply {φ₁ φ₂ : FTy} (h : FVec Ideal S1000x128 φ₁) (W : FVec Ideal S128x16 φ₂) (p : Fin 1000) (q : Fin 16) :
    matmul dot_S1000x128_S128x16_S1000x16_1_0_0_1_n_n none h W (constant (F := Ideal) S1000x16 .f32 0x00000000#32) (ix2 p q)
      = ∑ k : Fin 128, h (ix2 p k) * W (ix2 k q) :=
  Cert.PlainDot.matmul_zero_plain_apply none h W p q

/-- The ego branch: the rectified dense layer of the node's own row. -/
theorem pay2_apply (x : Vec Ideal S1000x128 .f32) (W : Vec Ideal S128x128 .f32) (b : Vec Ideal S128 .f32) (p : Fin 1000) (k : Fin 128) :
    k0_pay2 (F := Ideal) x W b (ix2 p k) = hid (fun l => x (ix2 p l)) (fun l k => W (ix2 l k)) (fun k => b (ix1 k)) k := by
  unfold k0_pay2 hid
  simp only [maximumf_apply, addf_apply, broadcast_apply, dense_apply, truncf_apply, Cert.LibLayout.bias_apply,
    Scalar.ofBits, Ideal.ofBits_def, Ideal.ofBits_zero_f32]

/-- The one-hop branch: the rectified dense layer of the node's aggregated row times its scale. -/
theorem pay3_apply (s : Vec Ideal S1000x128 .f32) (d : Vec Ideal S1000x1 .f32) (W : Vec Ideal S128x128 .f32) (b : Vec Ideal S128 .f32)
    (p : Fin 1000) (k : Fin 128) :
    k0_pay3 (F := Ideal) s d W b (ix2 p k)
      = hid (fun l => s (ix2 p l) * d (ix2 p (0 : Fin 1))) (fun l k => W (ix2 l k)) (fun k => b (ix1 k)) k := by
  unfold k0_pay3 hid
  simp only [maximumf_apply, addf_apply, mulf_apply, broadcast_apply, dense_apply, truncf_apply, Cert.LibLayout.bias_apply,
    Cert.HostDot.broadcastTo_a1_ab_apply, shapeCast_self, Scalar.ofBits, Ideal.ofBits_def, Ideal.ofBits_zero_f32]

/-- The two-hop branch's left factor: the node's aggregated row times its scale. -/
theorem pay4_apply (s : Vec Ideal S1000x128 .f32) (d : Vec Ideal S1000x1 .f32) (p : Fin 1000) (l : Fin 128) :
    k0_pay4 (F := Ideal) s d (ix2 p l) = s (ix2 p l) * d (ix2 p (0 : Fin 1)) := by
  unfold k0_pay4
  simp only [mulf_apply, truncf_apply, Cert.HostDot.broadcastTo_a1_ab_apply, shapeCast_self]

/-- The two-hop branch's weights: a change of format only. -/
theorem pay5_apply (W : Vec Ideal S128x128 .f32) (j : S128x128.Idx) : k0_pay5 (F := Ideal) W j = W j := rfl

/-- ENTRY (p, q) OF WHAT THE BODY STORES: the classifier on node p's three branches. -/
theorem pay1_apply (h0 h1 : FVec Ideal S1000x128 .f32) (a : FVec Ideal S1000x128 .bf16) (W2 : FVec Ideal S128x128 .bf16)
    (b2 : Vec Ideal S128 .f32) (C0 C1 C2 : Vec Ideal S128x16 .f32) (c : Vec Ideal S16 .f32) (p : Fin 1000) (q : Fin 16) :
    k0_pay1 (F := Ideal) h0 h1 a W2 (constant (F := Ideal) S1000x128 .f32 0x00000000#32) b2 C0 C1 C2 c (ix2 p q)
      = rowOut (fun k => h0 (ix2 p k)) (fun k => h1 (ix2 p k))
          (hid (fun l => a (ix2 p l)) (fun l k => W2 (ix2 l k)) (fun k => b2 (ix1 k)))
          (fun k q => C0 (ix2 k q)) (fun k q => C1 (ix2 k q)) (fun k q => C2 (ix2 k q)) (fun q => c (ix1 q)) q := by
  unfold k0_pay1 rowOut hid
  simp only [maximumf_apply, addf_apply, broadcast_apply, dense_apply, cls_apply, truncf_apply, Cert.LibLayout.bias_apply,
    shapeCast_self, Scalar.ofBits, Ideal.ofBits_def, Ideal.ofBits_zero_f32]

/-- THE BODY AT A NODE of its block: entry (p, q) of the value the body stores, from the fifteen loaded blocks — the
    classifier's three bands on the three rectified layers of node p's rows. -/
theorem body_apply (x0 x1 x2 : Vec Ideal S1000x128 .f32) (x3 x4 : Vec Ideal S1000x1 .f32)
    (x5 : Vec Ideal S128x128 .f32) (x6 : Vec Ideal S128 .f32) (x7 : Vec Ideal S128x128 .f32) (x8 : Vec Ideal S128 .f32)
    (x9 : Vec Ideal S128x128 .f32) (x10 : Vec Ideal S128 .f32) (x11 x12 x13 : Vec Ideal S128x16 .f32) (x14 : Vec Ideal S16 .f32)
    (p : Fin 1000) (q : Fin 16) :
    k0_pay1 (F := Ideal) (k0_pay2 x0 x5 x6) (k0_pay3 x1 x3 x7 x8) (k0_pay4 x2 x4) (k0_pay5 x9)
        (constant (F := Ideal) S1000x128 .f32 0x00000000#32) x10 x11 x12 x13 x14 (ix2 p q)
      = rowOut (hid (fun l => x0 (ix2 p l)) (fun l k => x5 (ix2 l k)) (fun k => x6 (ix1 k)))
          (hid (fun l => x1 (ix2 p l) * x3 (ix2 p (0 : Fin 1))) (fun l k => x7 (ix2 l k)) (fun k => x8 (ix1 k)))
          (hid (fun l => x2 (ix2 p l) * x4 (ix2 p (0 : Fin 1))) (fun l k => x9 (ix2 l k)) (fun k => x10 (ix1 k)))
          (fun k q => x11 (ix2 k q)) (fun k q => x12 (ix2 k q)) (fun k q => x13 (ix2 k q)) (fun q => x14 (ix1 q)) q := by
  rw [pay1_apply]
  simp only [pay2_apply, pay3_apply, pay4_apply, pay5_apply]

end Cert.KernelIdeal.BodyValue

end
-- ==== Proof.BlocksMoving.lean ====
/-
  The windows that move with the grid point, and the ego layer's weights, as rows of their arrays.

  The grid has 100 points; point t holds nodes 1000·t … 1000·t + 999. Block t of a feature array or of a scale column is
  rows 1000·t … 1000·t + 999 of the array: an element's position in the array is, on each axis, the block index times the
  block's extent plus its position in the block, and the printed index maps send point t to block (t, 0). A resident
  window's one block, at block index 0 on every axis, is its whole array. Each fact is stated of an arbitrary array read
  through the window's block, then used at the array the region finds.
-/
import proofs.«110596_j5342939316785_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, win0_0.index t 0 = t.val ∧ win0_0.index t 1 = 0)

/-- Row p of window 0's block at point t is row 1000·t + p of its array. -/
theorem read0 (c : Dev nD) (A : Buf (Elt Ideal) ((c : Thread nD τ).loc (Pipeline.arrRef spec0 0))) (t : Fin cfg0.N) (p : Fin 1000) (l : Fin 128) (i : Fin 100000) (hi : i.val = t.val * 1000 + p.val) :
    (((cfg0.win 0).blk t).view.read (Elt Ideal) A : Vec Ideal S1000x128 .f32) (ix2 p l) = (A : S100000x128.Idx → EReal) (ix2 i l) := by
  obtain ⟨e0, e1⟩ := idx0 t
  rw [View.read_apply]
  show A _ = A _
  congr 1
  funext a
  apply Fin.ext
  match a with
  | ⟨0, _⟩ =>
    show (((cfg0.win 0).rect t).emb (ix2 p l) 0 : Nat) = _
    rw [Pipeline.Window.rect_emb_val]
    show win0_0.index t 0 * 1000 + p.val = i.val
    rw [e0, hi]
  | ⟨1, _⟩ =>
    show (((cfg0.win 0).rect t).emb (ix2 p l) 1 : Nat) = _
    rw [Pipeline.Window.rect_emb_val]
    show win0_0.index t 1 * 128 + l.val = l.val
    rw [e1]; omega

theorem blk0 (c : Dev nD) (t : Fin cfg0.N) (p : Fin 1000) (l : Fin 128) (i : Fin 100000) (hi : i.val = t.val * 1000 + p.val) :
    (iblk m c 0 t : Vec Ideal S1000x128 .f32) (ix2 p l) = (V m c (Pipeline.arrRef spec0 0) : S100000x128.Idx → EReal) (ix2 i l) :=
  read0 c (V m c (Pipeline.arrRef spec0 0)) t p l i hi

theorem idx1 : ∀ t : Fin cfg0.N, win0_1.index t 0 = t.val ∧ win0_1.index t 1 = 0 :=
  (by decide +kernel : ∀ t : Fin grid0.N, win0_1.index t 0 = t.val ∧ win0_1.index t 1 = 0)

/-- Row p of window 1's block at point t is row 1000·t + p of its array. -/
theorem read1 (c : Dev nD) (A : Buf (Elt Ideal) ((c : Thread nD τ).loc (Pipeline.arrRef spec0 1))) (t : Fin cfg0.N) (p : Fin 1000) (l : Fin 128) (i : Fin 100000) (hi : i.val = t.val * 1000 + p.val) :
    (((cfg0.win 1).blk t).view.read (Elt Ideal) A : Vec Ideal S1000x128 .f32) (ix2 p l) = (A : S100000x128.Idx → EReal) (ix2 i l) := by
  obtain ⟨e0, e1⟩ := idx1 t
  rw [View.read_apply]
  show A _ = A _
  congr 1
  funext a
  apply Fin.ext
  match a with
  | ⟨0, _⟩ =>
    show (((cfg0.win 1).rect t).emb (ix2 p l) 0 : Nat) = _
    rw [Pipeline.Window.rect_emb_val]
    show win0_1.index t 0 * 1000 + p.val = i.val
    rw [e0, hi]
  | ⟨1, _⟩ =>
    show (((cfg0.win 1).rect t).emb (ix2 p l) 1 : Nat) = _
    rw [Pipeline.Window.rect_emb_val]
    show win0_1.index t 1 * 128 + l.val = l.val
    rw [e1]; omega

theorem blk1 (c : Dev nD) (t : Fin cfg0.N) (p : Fin 1000) (l : Fin 128) (i : Fin 100000) (hi : i.val = t.val * 1000 + p.val) :
    (iblk m c 1 t : Vec Ideal S1000x128 .f32) (ix2 p l) = (V m c (Pipeline.arrRef spec0 1) : S100000x128.Idx → EReal) (ix2 i l) :=
  read1 c (V m c (Pipeline.arrRef spec0 1)) t p l i hi

theorem idx2 : ∀ t : Fin cfg0.N, win0_2.index t 0 = t.val ∧ win0_2.index t 1 = 0 :=
  (by decide +kernel : ∀ t : Fin grid0.N, win0_2.index t 0 = t.val ∧ win0_2.index t 1 = 0)

/-- Row p of window 2's block at point t is row 1000·t + p of its array. -/
theorem read2 (c : Dev nD) (A : Buf (Elt Ideal) ((c : Thread nD τ).loc (Pipeline.arrRef spec0 2))) (t : Fin cfg0.N) (p : Fin 1000) (l : Fin 128) (i : Fin 100000) (hi : i.val = t.val * 1000 + p.val) :
    (((cfg0.win 2).blk t).view.read (Elt Ideal) A : Vec Ideal S1000x128 .f32) (ix2 p l) = (A : S100000x128.Idx → EReal) (ix2 i l) := by
  obtain ⟨e0, e1⟩ := idx2 t
  rw [View.read_apply]
  show A _ = A _
  congr 1
  funext a
  apply Fin.ext
  match a with
  | ⟨0, _⟩ =>
    show (((cfg0.win 2).rect t).emb (ix2 p l) 0 : Nat) = _
    rw [Pipeline.Window.rect_emb_val]
    show win0_2.index t 0 * 1000 + p.val = i.val
    rw [e0, hi]
  | ⟨1, _⟩ =>
    show (((cfg0.win 2).rect t).emb (ix2 p l) 1 : Nat) = _
    rw [Pipeline.Window.rect_emb_val]
    show win0_2.index t 1 * 128 + l.val = l.val
    rw [e1]; omega

theorem blk2 (c : Dev nD) (t : Fin cfg0.N) (p : Fin 1000) (l : Fin 128) (i : Fin 100000) (hi : i.val = t.val * 1000 + p.val) :
    (iblk m c 2 t : Vec Ideal S1000x128 .f32) (ix2 p l) = (V m c (Pipeline.arrRef spec0 2) : S100000x128.Idx → EReal) (ix2 i l) :=
  read2 c (V m c (Pipeline.arrRef spec0 2)) t p l i hi

theorem idx3 : ∀ t : Fin cfg0.N, win0_3.index t 0 = t.val ∧ win0_3.index t 1 = 0 :=
  (by decide +kernel : ∀ t : Fin grid0.N, win0_3.index t 0 = t.val ∧ win0_3.index t 1 = 0)

/-- Row p of window 3's block at point t is row 1000·t + p of its array. -/
theorem read3 (c : Dev nD) (A : Buf (Elt Ideal) ((c : Thread nD τ).loc (Pipeline.arrRef spec0 3))) (t : Fin cfg0.N) (p : Fin 1000) (l : Fin 1) (i : Fin 100000) (hi : i.val = t.val * 1000 + p.val) :
    (((cfg0.win 3).blk t).view.read (Elt Ideal) A : Vec Ideal S1000x1 .f32) (ix2 p l) = (A : S100000x1.Idx → EReal) (ix2 i l) := by
  obtain ⟨e0, e1⟩ := idx3 t
  rw [View.read_apply]
  show A _ = A _
  congr 1
  funext a
  apply Fin.ext
  match a with
  | ⟨0, _⟩ =>
    show (((cfg0.win 3).rect t).emb (ix2 p l) 0 : Nat) = _
    rw [Pipeline.Window.rect_emb_val]
    show win0_3.index t 0 * 1000 + p.val = i.val
    rw [e0, hi]
  | ⟨1, _⟩ =>
    show (((cfg0.win 3).rect t).emb (ix2 p l) 1 : Nat) = _
    rw [Pipeline.Window.rect_emb_val]
    show win0_3.index t 1 * 1 + l.val = l.val
    rw [e1]; omega

theorem blk3 (c : Dev nD) (t : Fin cfg0.N) (p : Fin 1000) (l : Fin 1) (i : Fin 100000) (hi : i.val = t.val * 1000 + p.val) :
    (iblk m c 3 t : Vec Ideal S1000x1 .f32) (ix2 p l) = (V m c (Pipeline.arrRef spec0 3) : S100000x1.Idx → EReal) (ix2 i l) :=
  read3 c (V m c (Pipeline.arrRef spec0 3)) t p l i hi

theorem idx4 : ∀ t : Fin cfg0.N, win0_4.index t 0 = t.val ∧ win0_4.index t 1 = 0 :=
  (by decide +kernel : ∀ t : Fin grid0.N, win0_4.index t 0 = t.val ∧ win0_4.index t 1 = 0)

/-- Row p of window 4's block at point t is row 1000·t + p of its array. -/
theorem read4 (c : Dev nD) (A : Buf (Elt Ideal) ((c : Thread nD τ).loc (Pipeline.arrRef spec0 4))) (t : Fin cfg0.N) (p : Fin 1000) (l : Fin 1) (i : Fin 100000) (hi : i.val = t.val * 1000 + p.val) :
    (((cfg0.win 4).blk t).view.read (Elt Ideal) A : Vec Ideal S1000x1 .f32) (ix2 p l) = (A : S100000x1.Idx → EReal) (ix2 i l) := by
  obtain ⟨e0, e1⟩ := idx4 t
  rw [View.read_apply]
  show A _ = A _
  congr 1
  funext a
  apply Fin.ext
  match a with
  | ⟨0, _⟩ =>
    show (((cfg0.win 4).rect t).emb (ix2 p l) 0 : Nat) = _
    rw [Pipeline.Window.rect_emb_val]
    show win0_4.index t 0 * 1000 + p.val = i.val
    rw [e0, hi]
  | ⟨1, _⟩ =>
    show (((cfg0.win 4).rect t).emb (ix2 p l) 1 : Nat) = _
    rw [Pipeline.Window.rect_emb_val]
    show win0_4.index t 1 * 1 + l.val = l.val
    rw [e1]; omega

theorem blk4 (c : Dev nD) (t : Fin cfg0.N) (p : Fin 1000) (l : Fin 1) (i : Fin 100000) (hi : i.val = t.val * 1000 + p.val) :
    (iblk m c 4 t : Vec Ideal S1000x1 .f32) (ix2 p l) = (V m c (Pipeline.arrRef spec0 4) : S100000x1.Idx → EReal) (ix2 i l) :=
  read4 c (V m c (Pipeline.arrRef spec0 4)) t p l i hi

theorem idx5 : ∀ t : Fin cfg0.N, win0_5.index t 0 = 0 ∧ win0_5.index t 1 = 0 :=
  (by decide +kernel : ∀ t : Fin grid0.N, win0_5.index t 0 = 0 ∧ win0_5.index t 1 = 0)

/-- Window 5's one block is its whole array. -/
theorem read5 (c : Dev nD) (A : Buf (Elt Ideal) ((c : Thread nD τ).loc (Pipeline.arrRef spec0 5))) (t : Fin cfg0.N) (p : Fin 128) (l : Fin 128) :
    (((cfg0.win 5).blk t).view.read (Elt Ideal) A : Vec Ideal S128x128 .f32) (ix2 p l) = (A : S128x128.Idx → EReal) (ix2 p l) := by
  obtain ⟨e0, e1⟩ := idx5 t
  rw [View.read_apply]
  show A _ = A _
  congr 1
  funext a
  apply Fin.ext
  match a with
  | ⟨0, _⟩ =>
    show (((cfg0.win 5).rect t).emb (ix2 p l) 0 : Nat) = _
    rw [Pipeline.Window.rect_emb_val]
    show win0_5.index t 0 * 128 + p.val = p.val
    rw [e0]; omega
  | ⟨1, _⟩ =>
    show (((cfg0.win 5).rect t).emb (ix2 p l) 1 : Nat) = _
    rw [Pipeline.Window.rect_emb_val]
    show win0_5.index t 1 * 128 + l.val = l.val
    rw [e1]; omega

theorem blk5 (c : Dev nD) (t : Fin cfg0.N) (p : Fin 128) (l : Fin 128) :
    (iblk m c 5 t : Vec Ideal S128x128 .f32) (ix2 p l) = (V m c (Pipeline.arrRef spec0 5) : S128x128.Idx → EReal) (ix2 p l) :=
  read5 c (V m c (Pipeline.arrRef spec0 5)) t p l

theorem idx6 : ∀ t : Fin cfg0.N, win0_6.index t 0 = 0 :=
  (by decide +kernel : ∀ t : Fin grid0.N, win0_6.index t 0 = 0)

/-- Window 6's one block is its whole array. -/
theorem read6 (c : Dev nD) (A : Buf (Elt Ideal) ((c : Thread nD τ).loc (Pipeline.arrRef spec0 6))) (t : Fin cfg0.N) (k : Fin 128) :
    (((cfg0.win 6).blk t).view.read (Elt Ideal) A : Vec Ideal S128 .f32) (ix1 k) = (A : S128.Idx → EReal) (ix1 k) := by
  have e0 := idx6 t
  rw [View.read_apply]
  show A _ = A _
  congr 1
  funext a
  apply Fin.ext
  match a with
  | ⟨0, _⟩ =>
    show (((cfg0.win 6).rect t).emb (ix1 k) 0 : Nat) = _
    rw [Pipeline.Window.rect_emb_val]
    show win0_6.index t 0 * 128 + k.val = k.val
    rw [e0]; omega

theorem blk6 (c : Dev nD) (t : Fin cfg0.N) (k : Fin 128) :
    (iblk m c 6 t : Vec Ideal S128 .f32) (ix1 k) = (V m c (Pipeline.arrRef spec0 6) : S128.Idx → EReal) (ix1 k) :=
  read6 c (V m c (Pipeline.arrRef spec0 6)) t k

end Cert.KernelIdeal.Blocks

end
-- ==== Proof.BlocksResident.lean ====
/-
  The resident windows — the hop layers' weights and biases, the three bands of the classifier, its bias — as their arrays.

  Each is fetched once; its index map sends every grid point to block 0 on every axis, and the block has the array's
  extents, so the block read at an index is the array at that index.
-/
import proofs.«110596_j5342939316785_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem idx7 : ∀ t : Fin cfg0.N, win0_7.index t 0 = 0 ∧ win0_7.index t 1 = 0 :=
  (by decide +kernel : ∀ t : Fin grid0.N, win0_7.index t 0 = 0 ∧ win0_7.index t 1 = 0)

/-- Window 7's one block is its whole array. -/
theorem read7 (c : Dev nD) (A : Buf (Elt Ideal) ((c : Thread nD τ).loc (Pipeline.arrRef spec0 7))) (t : Fin cfg0.N) (p : Fin 128) (l : Fin 128) :
    (((cfg0.win 7).blk t).view.read (Elt Ideal) A : Vec Ideal S128x128 .f32) (ix2 p l) = (A : S128x128.Idx → EReal) (ix2 p l) := by
  obtain ⟨e0, e1⟩ := idx7 t
  rw [View.read_apply]
  show A _ = A _
  congr 1
  funext a
  apply Fin.ext
  match a with
  | ⟨0, _⟩ =>
    show (((cfg0.win 7).rect t).emb (ix2 p l) 0 : Nat) = _
    rw [Pipeline.Window.rect_emb_val]
    show win0_7.index t 0 * 128 + p.val = p.val
    rw [e0]; omega
  | ⟨1, _⟩ =>
    show (((cfg0.win 7).rect t).emb (ix2 p l) 1 : Nat) = _
    rw [Pipeline.Window.rect_emb_val]
    show win0_7.index t 1 * 128 + l.val = l.val
    rw [e1]; omega

theorem blk7 (c : Dev nD) (t : Fin cfg0.N) (p : Fin 128) (l : Fin 128) :
    (iblk m c 7 t : Vec Ideal S128x128 .f32) (ix2 p l) = (V m c (Pipeline.arrRef spec0 7) : S128x128.Idx → EReal) (ix2 p l) :=
  read7 c (V m c (Pipeline.arrRef spec0 7)) t p l

theorem idx8 : ∀ t : Fin cfg0.N, win0_8.index t 0 = 0 :=
  (by decide +kernel : ∀ t : Fin grid0.N, win0_8.index t 0 = 0)

/-- Window 8's one block is its whole array. -/
theorem read8 (c : Dev nD) (A : Buf (Elt Ideal) ((c : Thread nD τ).loc (Pipeline.arrRef spec0 8))) (t : Fin cfg0.N) (k : Fin 128) :
    (((cfg0.win 8).blk t).view.read (Elt Ideal) A : Vec Ideal S128 .f32) (ix1 k) = (A : S128.Idx → EReal) (ix1 k) := by
  have e0 := idx8 t
  rw [View.read_apply]
  show A _ = A _
  congr 1
  funext a
  apply Fin.ext
  match a with
  | ⟨0, _⟩ =>
    show (((cfg0.win 8).rect t).emb (ix1 k) 0 : Nat) = _
    rw [Pipeline.Window.rect_emb_val]
    show win0_8.index t 0 * 128 + k.val = k.val
    rw [e0]; omega

theorem blk8 (c : Dev nD) (t : Fin cfg0.N) (k : Fin 128) :
    (iblk m c 8 t : Vec Ideal S128 .f32) (ix1 k) = (V m c (Pipeline.arrRef spec0 8) : S128.Idx → EReal) (ix1 k) :=
  read8 c (V m c (Pipeline.arrRef spec0 8)) t k

theorem idx9 : ∀ t : Fin cfg0.N, win0_9.index t 0 = 0 ∧ win0_9.index t 1 = 0 :=
  (by decide +kernel : ∀ t : Fin grid0.N, win0_9.index t 0 = 0 ∧ win0_9.index t 1 = 0)

/-- Window 9's one block is its whole array. -/
theorem read9 (c : Dev nD) (A : Buf (Elt Ideal) ((c : Thread nD τ).loc (Pipeline.arrRef spec0 9))) (t : Fin cfg0.N) (p : Fin 128) (l : Fin 128) :
    (((cfg0.win 9).blk t).view.read (Elt Ideal) A : Vec Ideal S128x128 .f32) (ix2 p l) = (A : S128x128.Idx → EReal) (ix2 p l) := by
  obtain ⟨e0, e1⟩ := idx9 t
  rw [View.read_apply]
  show A _ = A _
  congr 1
  funext a
  apply Fin.ext
  match a with
  | ⟨0, _⟩ =>
    show (((cfg0.win 9).rect t).emb (ix2 p l) 0 : Nat) = _
    rw [Pipeline.Window.rect_emb_val]
    show win0_9.index t 0 * 128 + p.val = p.val
    rw [e0]; omega
  | ⟨1, _⟩ =>
    show (((cfg0.win 9).rect t).emb (ix2 p l) 1 : Nat) = _
    rw [Pipeline.Window.rect_emb_val]
    show win0_9.index t 1 * 128 + l.val = l.val
    rw [e1]; omega

theorem blk9 (c : Dev nD) (t : Fin cfg0.N) (p : Fin 128) (l : Fin 128) :
    (iblk m c 9 t : Vec Ideal S128x128 .f32) (ix2 p l) = (V m c (Pipeline.arrRef spec0 9) : S128x128.Idx → EReal) (ix2 p l) :=
  read9 c (V m c (Pipeline.arrRef spec0 9)) t p l

theorem idx10 : ∀ t : Fin cfg0.N, win0_10.index t 0 = 0 :=
  (by decide +kernel : ∀ t : Fin grid0.N, win0_10.index t 0 = 0)

/-- Window 10's one block is its whole array. -/
theorem read10 (c : Dev nD) (A : Buf (Elt Ideal) ((c : Thread nD τ).loc (Pipeline.arrRef spec0 10))) (t : Fin cfg0.N) (k : Fin 128) :
    (((cfg0.win 10).blk t).view.read (Elt Ideal) A : Vec Ideal S128 .f32) (ix1 k) = (A : S128.Idx → EReal) (ix1 k) := by
  have e0 := idx10 t
  rw [View.read_apply]
  show A _ = A _
  congr 1
  funext a
  apply Fin.ext
  match a with
  | ⟨0, _⟩ =>
    show (((cfg0.win 10).rect t).emb (ix1 k) 0 : Nat) = _
    rw [Pipeline.Window.rect_emb_val]
    show win0_10.index t 0 * 128 + k.val = k.val
    rw [e0]; omega

theorem blk10 (c : Dev nD) (t : Fin cfg0.N) (k : Fin 128) :
    (iblk m c 10 t : Vec Ideal S128 .f32) (ix1 k) = (V m c (Pipeline.arrRef spec0 10) : S128.Idx → EReal) (ix1 k) :=
  read10 c (V m c (Pipeline.arrRef spec0 10)) t k

theorem idx11 : ∀ t : Fin cfg0.N, win0_11.index t 0 = 0 ∧ win0_11.index t 1 = 0 :=
  (by decide +kernel : ∀ t : Fin grid0.N, win0_11.index t 0 = 0 ∧ win0_11.index t 1 = 0)

/-- Window 11's one block is its whole array. -/
theorem read11 (c : Dev nD) (A : Buf (Elt Ideal) ((c : Thread nD τ).loc (Pipeline.arrRef spec0 11))) (t : Fin cfg0.N) (p : Fin 128) (l : Fin 16) :
    (((cfg0.win 11).blk t).view.read (Elt Ideal) A : Vec Ideal S128x16 .f32) (ix2 p l) = (A : S128x16.Idx → EReal) (ix2 p l) := by
  obtain ⟨e0, e1⟩ := idx11 t
  rw [View.read_apply]
  show A _ = A _
  congr 1
  funext a
  apply Fin.ext
  match a with
  | ⟨0, _⟩ =>
    show (((cfg0.win 11).rect t).emb (ix2 p l) 0 : Nat) = _
    rw [Pipeline.Window.rect_emb_val]
    show win0_11.index t 0 * 128 + p.val = p.val
    rw [e0]; omega
  | ⟨1, _⟩ =>
    show (((cfg0.win 11).rect t).emb (ix2 p l) 1 : Nat) = _
    rw [Pipeline.Window.rect_emb_val]
    show win0_11.index t 1 * 16 + l.val = l.val
    rw [e1]; omega

theorem blk11 (c : Dev nD) (t : Fin cfg0.N) (p : Fin 128) (l : Fin 16) :
    (iblk m c 11 t : Vec Ideal S128x16 .f32) (ix2 p l) = (V m c (Pipeline.arrRef spec0 11) : S128x16.Idx → EReal) (ix2 p l) :=
  read11 c (V m c (Pipeline.arrRef spec0 11)) t p l

theorem idx12 : ∀ t : Fin cfg0.N, win0_12.index t 0 = 0 ∧ win0_12.index t 1 = 0 :=
  (by decide +kernel : ∀ t : Fin grid0.N, win0_12.index t 0 = 0 ∧ win0_12.index t 1 = 0)

/-- Window 12's one block is its whole array. -/
theorem read12 (c : Dev nD) (A : Buf (Elt Ideal) ((c : Thread nD τ).loc (Pipeline.arrRef spec0 12))) (t : Fin cfg0.N) (p : Fin 128) (l : Fin 16) :
    (((cfg0.win 12).blk t).view.read (Elt Ideal) A : Vec Ideal S128x16 .f32) (ix2 p l) = (A : S128x16.Idx → EReal) (ix2 p l) := by
  obtain ⟨e0, e1⟩ := idx12 t
  rw [View.read_apply]
  show A _ = A _
  congr 1
  funext a
  apply Fin.ext
  match a with
  | ⟨0, _⟩ =>
    show (((cfg0.win 12).rect t).emb (ix2 p l) 0 : Nat) = _
    rw [Pipeline.Window.rect_emb_val]
    show win0_12.index t 0 * 128 + p.val = p.val
    rw [e0]; omega
  | ⟨1, _⟩ =>
    show (((cfg0.win 12).rect t).emb (ix2 p l) 1 : Nat) = _
    rw [Pipeline.Window.rect_emb_val]
    show win0_12.index t 1 * 16 + l.val = l.val
    rw [e1]; omega

theorem blk12 (c : Dev nD) (t : Fin cfg0.N) (p : Fin 128) (l : Fin 16) :
    (iblk m c 12 t : Vec Ideal S128x16 .f32) (ix2 p l) = (V m c (Pipeline.arrRef spec0 12) : S128x16.Idx → EReal) (ix2 p l) :=
  read12 c (V m c (Pipeline.arrRef spec0 12)) t p l

theorem idx13 : ∀ t : Fin cfg0.N, win0_13.index t 0 = 0 ∧ win0_13.index t 1 = 0 :=
  (by decide +kernel : ∀ t : Fin grid0.N, win0_13.index t 0 = 0 ∧ win0_13.index t 1 = 0)

/-- Window 13's one block is its whole array. -/
theorem read13 (c : Dev nD) (A : Buf (Elt Ideal) ((c : Thread nD τ).loc (Pipeline.arrRef spec0 13))) (t : Fin cfg0.N) (p : Fin 128) (l : Fin 16) :
    (((cfg0.win 13).blk t).view.read (Elt Ideal) A : Vec Ideal S128x16 .f32) (ix2 p l) = (A : S128x16.Idx → EReal) (ix2 p l) := by
  obtain ⟨e0, e1⟩ := idx13 t
  rw [View.read_apply]
  show A _ = A _
  congr 1
  funext a
  apply Fin.ext
  match a with
  | ⟨0, _⟩ =>
    show (((cfg0.win 13).rect t).emb (ix2 p l) 0 : Nat) = _
    rw [Pipeline.Window.rect_emb_val]
    show win0_13.index t 0 * 128 + p.val = p.val
    rw [e0]; omega
  | ⟨1, _⟩ =>
    show (((cfg0.win 13).rect t).emb (ix2 p l) 1 : Nat) = _
    rw [Pipeline.Window.rect_emb_val]
    show win0_13.index t 1 * 16 + l.val = l.val
    rw [e1]; omega

theorem blk13 (c : Dev nD) (t : Fin cfg0.N) (p : Fin 128) (l : Fin 16) :
    (iblk m c 13 t : Vec Ideal S128x16 .f32) (ix2 p l) = (V m c (Pipeline.arrRef spec0 13) : S128x16.Idx → EReal) (ix2 p l) :=
  read13 c (V m c (Pipeline.arrRef spec0 13)) t p l

theorem idx14 : ∀ t : Fin cfg0.N, win0_14.index t 0 = 0 :=
  (by decide +kernel : ∀ t : Fin grid0.N, win0_14.index t 0 = 0)

/-- Window 14's one block is its whole array. -/
theorem read14 (c : Dev nD) (A : Buf (Elt Ideal) ((c : Thread nD τ).loc (Pipeline.arrRef spec0 14))) (t : Fin cfg0.N) (k : Fin 16) :
    (((cfg0.win 14).blk t).view.read (Elt Ideal) A : Vec Ideal S16 .f32) (ix1 k) = (A : S16.Idx → EReal) (ix1 k) := by
  have e0 := idx14 t
  rw [View.read_apply]
  show A _ = A _
  congr 1
  funext a
  apply Fin.ext
  match a with
  | ⟨0, _⟩ =>
    show (((cfg0.win 14).rect t).emb (ix1 k) 0 : Nat) = _
    rw [Pipeline.Window.rect_emb_val]
    show win0_14.index t 0 * 16 + k.val = k.val
    rw [e0]; omega

theorem blk14 (c : Dev nD) (t : Fin cfg0.N) (k : Fin 16) :
    (iblk m c 14 t : Vec Ideal S16 .f32) (ix1 k) = (V m c (Pipeline.arrRef spec0 14) : S16.Idx → EReal) (ix1 k) :=
  read14 c (V m c (Pipeline.arrRef spec0 14)) t k

end Cert.KernelIdeal.Blocks

end
-- ==== Proof.NodeRows.lean ====
/-
  The kernel's result array, node by node.

  What grid point t writes back is, at (p, q), the body's value for node p of its block: the classifier's three bands on
  the three rectified layers of that node's rows. Row p of a moving block at point t is row 1000·t + p of its array and a
  resident block is its array, so that value is the node function of the arrays the region finds, at node 1000·t + p. The
  100 output blocks of 1000 rows tile the 100000 rows of the result, so after the run the result array is the node
  function at every node and class.
-/
import proofs.«110596_j5342939316785_1_alg».proof.Proof.Gen.KernelIdeal.Value
import proofs.«110596_j5342939316785_1_alg».proof.Proof.BodyValue
import proofs.«110596_j5342939316785_1_alg».proof.Proof.BlocksMoving
import proofs.«110596_j5342939316785_1_alg».proof.Proof.BlocksResident

noncomputable section

namespace Cert.KernelIdeal.Rows

open Cert.KernelIdeal Cert.KernelIdeal.Gen Idealize.ShloMosaic Idealize.ShloMosaic.TcCoe Idealize.SL.Sem
open Idealize.ShloMosaic.ValueIdx Cert.HopSpec Cert.KernelIdeal.Blocks
open Idealize.ShloMosaic.Pipeline (Dat)

/-- THE NODE FUNCTION: the network's output for node i at class q, from the feature arrays (own, one-hop, two-hop), the two
    scale columns, the three dense layers and the three bands of the classifier. -/
def nodeOut (X S1 S2 : S100000x128.Idx → EReal) (D1 D2 : S100000x1.Idx → EReal)
    (W0 : S128x128.Idx → EReal) (b0 : S128.Idx → EReal) (W1 : S128x128.Idx → EReal) (b1 : S128.Idx → EReal)
    (W2 : S128x128.Idx → EReal) (b2 : S128.Idx → EReal) (C0 C1 C2 : S128x16.Idx → EReal) (cb : S16.Idx → EReal)
    (i : Fin 100000) (q : Fin 16) : EReal :=
  rowOut (hid (fun l => X (ix2 i l)) (fun l k => W0 (ix2 l k)) (fun k => b0 (ix1 k)))
    (hid (fun l => S1 (ix2 i l) * D1 (ix2 i (0 : Fin 1))) (fun l k => W1 (ix2 l k)) (fun k => b1 (ix1 k)))
    (hid (fun l => S2 (ix2 i l) * D2 (ix2 i (0 : Fin 1))) (fun l k => W2 (ix2 l k)) (fun k => b2 (ix1 k)))
    (fun k q => C0 (ix2 k q)) (fun k q => C1 (ix2 k q)) (fun k q => C2 (ix2 k q)) (fun q => cb (ix1 q)) q

variable (m : (ℓ : Loc nD τ sig) → Buf (Elt Ideal) ℓ) (ρ : Dev nD → PrngReg)

/-- The node function of the arrays the region finds, as an array over [100000, 16]. -/
def result (c : Dev nD) : S100000x16.Idx → EReal := fun j =>
  nodeOut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9)) (V m c (Pipeline.arrRef spec0 10)) (V m c (Pipeline.arrRef spec0 11))
    (V m c (Pipeline.arrRef spec0 12)) (V m c (Pipeline.arrRef spec0 13)) (V m c (Pipeline.arrRef spec0 14)) (j 0) (j 1)

theorem result_apply (c : Dev nD) (i : Fin 100000) (q : Fin 16) :
    result m c (ix2 i q)
      = nodeOut (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5))
          (V m c (Pipeline.arrRef spec0 6)) (V m c (Pipeline.arrRef spec0 7)) (V m c (Pipeline.arrRef spec0 8))
          (V m c (Pipeline.arrRef spec0 9)) (V m c (Pipeline.arrRef spec0 10)) (V m c (Pipeline.arrRef spec0 11))
          (V m c (Pipeline.arrRef spec0 12)) (V m c (Pipeline.arrRef spec0 13)) (V m c (Pipeline.arrRef spec0 14)) i q := rfl

/-! ## The output window's block -/

theorem idx15 : ∀ t : Fin cfg0.N, win0_15.index t 0 = t.val ∧ win0_15.index t 1 = 0 :=
  (by decide +kernel : ∀ t : Fin grid0.N, win0_15.index t 0 = t.val ∧ win0_15.index t 1 = 0)

/-- Row p of window 15's block at point t is row 1000·t + p of its array. -/
theorem read15 (c : Dev nD) (A : Buf (Elt Ideal) ((c : Thread nD τ).loc (Pipeline.arrRef spec0 15))) (t : Fin cfg0.N) (p : Fin 1000) (l : Fin 16) (i : Fin 100000) (hi : i.val = t.val * 1000 + p.val) :
    (((cfg0.win 15).blk t).view.read (Elt Ideal) A : Vec Ideal S1000x16 .f32) (ix2 p l) = (A : S100000x16.Idx → EReal) (ix2 i l) := by
  obtain ⟨e0, e1⟩ := idx15 t
  rw [View.read_apply]
  show A _ = A _
  congr 1
  funext a
  apply Fin.ext
  match a with
  | ⟨0, _⟩ =>
    show (((cfg0.win 15).rect t).emb (ix2 p l) 0 : Nat) = _
    rw [Pipeline.Window.rect_emb_val]
    show win0_15.index t 0 * 1000 + p.val = i.val
    rw [e0, hi]
  | ⟨1, _⟩ =>
    show (((cfg0.win 15).rect t).emb (ix2 p l) 1 : Nat) = _
    rw [Pipeline.Window.rect_emb_val]
    show win0_15.index t 1 * 16 + l.val = l.val
    rw [e1]; omega

theorem hz2 : (![0, 0] : Fin 2 → Nat) = fun _ => 0 := funext fun a => by fin_cases a <;> rfl
theorem hz1 : (![0] : Fin 1 → Nat) = fun _ => 0 := funext fun a => by fin_cases a <;> rfl

theorem N100 : cfg0.N = 100 := N_0

/-! ## What a point writes back -/

/-- WHAT POINT t WRITES BACK is block t of the node function of the arrays the region finds. -/
theorem flushed_eq (c : Dev nD) (t : Fin cfg0.N) :
    (dats m 0 c).flushed 15 t = ((cfg0.win 15).blk t).view.read (Elt Ideal) (result m c) := by
  rw [Cert.KernelIdeal.Value.flushed15]
  unfold out0_15
  rw [View.canon_unit_zero hz2]
  simp only [View.ld_unit_zero (S := S1000x128) hz2, View.ld_unit_zero (S := S1000x1) hz2,
    View.ld_unit_zero (S := S128x128) hz2, View.ld_unit_zero (S := S128) hz1, View.ld_unit_zero (S := S128x16) hz2,
    View.ld_unit_zero (S := S16) hz1]
  funext j
  obtain ⟨p, q, rfl⟩ : ∃ (p : Fin 1000) (q : Fin 16), j = ix2 p q := ⟨j 0, j 1, eq_ix2 (n0 := 1000) (n1 := 16) j⟩
  have ht : t.val < 100 := lt_of_lt_of_eq t.isLt N100
  have hi : (⟨t.val * 1000 + p.val, by have := p.isLt; omega⟩ : Fin 100000).val = t.val * 1000 + p.val := rfl
  refine (Cert.KernelIdeal.BodyValue.body_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) p q).trans ?_
  refine Eq.trans ?_ (read15 c (result m c) t p q _ hi).symm
  rw [result_apply]
  unfold nodeOut
  simp only [blk0 m c t p _ _ hi, blk1 m c t p _ _ hi, blk2 m c t p _ _ hi, blk3 m c t p _ _ hi, blk4 m c t p _ _ hi,
    blk5 m c t, blk6 m c t, blk7 m c t, blk8 m c t, blk9 m c t, blk10 m c t, blk11 m c t, blk12 m c t, blk13 m c t,
    blk14 m c t]

/-! ## The blocks tile the result -/

/-- An index of the result is in point t's block iff each coordinate is in the block's range on its axis. -/
theorem mem_blk (t : Fin cfg0.N) (i : S100000x16.Idx) :
    i ∈ ((cfg0.win 15).blk t).view.set ↔ ∀ a : Fin 2, win0_15.index t a * S1000x16.size a ≤ (i a).val
      ∧ (i a).val < win0_15.index t a * S1000x16.size a + S1000x16.size a := by
  show i ∈ ((View.whole main_v38).slice (win0_15.rect t)).set ↔ _
  rw [View.set_slice_whole, Rect.mem_set_unit]
  exact Iff.rfl

/-- Every node is in the block of the point its row falls in. -/
theorem cover (i : S100000x16.Idx) :
    ∃ t : Fin cfg0.N, (cfg0.win 15).flush t = true ∧ i ∈ ((cfg0.win 15).blk t).view.set := by
  have h0 : (i 0).val < 100000 := (i 0).isLt
  have h1 : (i 1).val < 16 := (i 1).isLt
  refine ⟨⟨(i 0).val / 1000, by rw [N100]; omega⟩, flush0_15 _, ?_⟩
  rw [mem_blk]
  obtain ⟨e0, e1⟩ := idx15 ⟨(i 0).val / 1000, by rw [N100]; omega⟩
  intro a
  match a with
  | ⟨0, _⟩ =>
    show win0_15.index _ 0 * 1000 ≤ (i 0).val ∧ (i 0).val < win0_15.index _ 0 * 1000 + 1000
    rw [e0]
    show (i 0).val / 1000 * 1000 ≤ (i 0).val ∧ (i 0).val < (i 0).val / 1000 * 1000 + 1000
    omega
  | ⟨1, _⟩ =>
    show win0_15.index _ 1 * 16 ≤ (i 1).val ∧ (i 1).val < win0_15.index _ 1 * 16 + 16
    rw [e1]
    omega

/-- THE RESULT ARRAY after the run is the node function of the arrays the region finds. -/
theorem final (c : Dev nD) : (dats m 0 c).arrAt 15 cfg0.N = result m c :=
  (dats m 0 c).arrAt_eq_of_cover 15 (result m c) (fun t _ => flushed_eq m c t) cover

/-- The run, read: the result array at the node function, the arguments unchanged. -/
theorem run : θ_run defs (onTc (τ := τ) (main (F := Ideal))) ⟨m, fun _ => 0, ρ⟩ fun r => ∀ c : Dev nD,
      r.2.mem ((c : Thread nD τ).loc main_v38) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.KernelIdeal.Rows

end
-- ==== Proof.HostPrefix.lean ====
/-
  What the host computes before the kernel is launched, set beside the reference's own stages.

  Before the launch the host aggregates the features over the edges once and twice (a gather of the rows at the edges'
  second ends, wrapped once when negative, added into the rows at their first ends), counts each node's edges the same way,
  takes the inverse of the count raised to at least one, stands the inverse and its square up as columns, and cuts the
  classifier matrix into its three bands of 128 rows. The reference computes the same aggregates, count and inverse by the
  same operations on the same arguments — operation for operation the same terms — so each array the kernel's windows
  stage is a stage of the reference, or a reshaping or a slice of one.
-/
import proofs.«110596_j5342939316785_1_alg».proof.Proof.Gen.KernelIdeal.Frame
import proofs.«110596_j5342939316785_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Prefix

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The one-hop aggregate the kernel stages is the reference's. -/
theorem v21_eq (c : Dev nD) : (V m c main_v21 : S100000x128.Idx → EReal)
    = Cert.ReferenceIdeal.Read.val_main_v26 (F := Ideal) (m ((c : Thread nD τ).loc main_arg0)) (m ((c : Thread nD τ).loc main_arg1)) := by
  dsimp only [Gen.V, Gen.hostOps0]
  after_results_simp <;> rfl

/-- The two-hop aggregate the kernel stages is the reference's. -/
theorem v31_eq (c : Dev nD) : (V m c main_v31 : S100000x128.Idx → EReal)
    = Cert.ReferenceIdeal.Read.val_main_v54 (F := Ideal) (m ((c : Thread nD τ).loc main_arg0)) (m ((c : Thread nD τ).loc main_arg1)) := by
  dsimp only [Gen.V, Gen.hostOps0]
  after_results_simp <;> rfl

/-- The first scale column is the reference's inverse degree stood up as a column. -/
theorem v32_eq (c : Dev nD) : (V m c main_v32 : S100000x1.Idx → EReal)
    = shapeCast S100000x1 (Cert.ReferenceIdeal.Read.val_main_v11 (F := Ideal) (m ((c : Thread nD τ).loc main_arg1))) shapeCasts_S100000_S100000x1 := by
  dsimp only [Gen.V, Gen.hostOps0]
  after_results_simp <;> rfl

/-- The second scale column is the square of the reference's inverse degree stood up as a column. -/
theorem v34_eq (c : Dev nD) : (V m c main_v34 : S100000x1.Idx → EReal)
    = shapeCast S100000x1 (Cert.ReferenceIdeal.Read.val_main_v55 (F := Ideal) (m ((c : Thread nD τ).loc main_arg1))) shapeCasts_S100000_S100000x1 := by
  dsimp only [Gen.V, Gen.hostOps0]
  after_results_simp <;> rfl

/-- The classifier's first band: rows 0 … 127 of the matrix. -/
theorem v35_eq (c : Dev nD) : (V m c main_v35 : S128x16.Idx → EReal)
    = extractStridedSlice S128x16 ![0, 0] (m ((c : Thread nD τ).loc main_arg8)) slices_S384x16_S128x16_0_0 := by
  dsimp only [Gen.V, Gen.hostOps0]
  after_results_simp <;> rfl

/-- The classifier's second band: rows 128 … 255 of the matrix. -/
theorem v36_eq (c : Dev nD) : (V m c main_v36 : S128x16.Idx → EReal)
    = extractStridedSlice S128x16 ![128, 0] (m ((c : Thread nD τ).loc main_arg8)) slices_S384x16_S128x16_128_0 := by
  dsimp only [Gen.V, Gen.hostOps0]
  after_results_simp <;> rfl

/-- The classifier's third band: rows 256 … 383 of the matrix. -/
theorem v37_eq (c : Dev nD) : (V m c main_v37 : S128x16.Idx → EReal)
    = extractStridedSlice S128x16 ![256, 0] (m ((c : Thread nD τ).loc main_arg8)) slices_S384x16_S128x16_256_0 := by
  dsimp only [Gen.V, Gen.hostOps0]
  after_results_simp <;> rfl

end Cert.KernelIdeal.Prefix

end
-- ==== Proof.LibConcatBands.lean ====
/-
  Three matrices of the same shape joined side by side, read at an entry.

  Joining three [a, b] matrices along their columns gives an [a, n] matrix (n = 3·b) whose columns come in three bands:
  column c of the result is column c of the first piece when c < b, column c − b of the second when b ≤ c < 2·b, and
  column c − 2·b of the third from there on; the row is the same.
-/
import Idealize.ShloMosaic.Lib.Pipeline.Value
import Idealize.ShloMosaic.Lib.ValueIdx

noncomputable section

namespace Cert.Lib.ConcatBands

open Idealize.ShloMosaic Idealize.ShloMosaic.ValueIdx

variable {α : Type}

/-- The first band of three [a, b] pieces joined on the column axis: column `c = k` of the result is column `k` of the
    first piece. -/
theorem band0 {a b n : ℕ} (x y z : (⟨2, ![a, b]⟩ : Shape).Idx → α)
    (h : Shape.Concatenates (([⟨⟨2, ![a, b]⟩, x⟩, ⟨⟨2, ![a, b]⟩, y⟩, ⟨⟨2, ![a, b]⟩, z⟩] : List ((s : Shape) × (s.Idx → α))).map (·.1))
      ⟨2, ![a, n]⟩ (1 : Fin 2))
    (p : Fin a) (k : Fin b) (c : Fin n) (hc : c.val = k.val) :
    concatenate ⟨2, ![a, n]⟩ (1 : Fin 2) [⟨⟨2, ![a, b]⟩, x⟩, ⟨⟨2, ![a, b]⟩, y⟩, ⟨⟨2, ![a, b]⟩, z⟩] h (ix2 p c) = x (ix2 p k) :=
  concatenate_apply_piece (1 : Fin 2) _ h (ix2 p c) 0 (by simp) ⟨2, ![a, b]⟩ x rfl rfl 0 rfl (ix2 p k)
    (fun bb hb => by
      match bb with
      | ⟨0, _⟩ => rfl
      | ⟨1, _⟩ => exact absurd rfl hb)
    (by show 0 + k.val = c.val; omega)

/-- The second band: column `c = b + k` of the result is column `k` of the second piece. -/
theorem band1 {a b n : ℕ} (x y z : (⟨2, ![a, b]⟩ : Shape).Idx → α)
    (h : Shape.Concatenates (([⟨⟨2, ![a, b]⟩, x⟩, ⟨⟨2, ![a, b]⟩, y⟩, ⟨⟨2, ![a, b]⟩, z⟩] : List ((s : Shape) × (s.Idx → α))).map (·.1))
      ⟨2, ![a, n]⟩ (1 : Fin 2))
    (p : Fin a) (k : Fin b) (c : Fin n) (hc : c.val = b + k.val) :
    concatenate ⟨2, ![a, n]⟩ (1 : Fin 2) [⟨⟨2, ![a, b]⟩, x⟩, ⟨⟨2, ![a, b]⟩, y⟩, ⟨⟨2, ![a, b]⟩, z⟩] h (ix2 p c) = y (ix2 p k) :=
  concatenate_apply_piece (1 : Fin 2) _ h (ix2 p c) 1 (by simp) ⟨2, ![a, b]⟩ y rfl rfl b rfl (ix2 p k)
    (fun bb hb => by
      match bb with
      | ⟨0, _⟩ => rfl
      | ⟨1, _⟩ => exact absurd rfl hb)
    (by show b + k.val = c.val; omega)

/-- The third band: column `c = 2·b + k` of the result is column `k` of the third piece. -/
theorem band2 {a b n : ℕ} (x y z : (⟨2, ![a, b]⟩ : Shape).Idx → α)
    (h : Shape.Concatenates (([⟨⟨2, ![a, b]⟩, x⟩, ⟨⟨2, ![a, b]⟩, y⟩, ⟨⟨2, ![a, b]⟩, z⟩] : List ((s : Shape) × (s.Idx → α))).map (·.1))
      ⟨2, ![a, n]⟩ (1 : Fin 2))
    (p : Fin a) (k : Fin b) (c : Fin n) (hc : c.val = b + b + k.val) :
    concatenate ⟨2, ![a, n]⟩ (1 : Fin 2) [⟨⟨2, ![a, b]⟩, x⟩, ⟨⟨2, ![a, b]⟩, y⟩, ⟨⟨2, ![a, b]⟩, z⟩] h (ix2 p c) = z (ix2 p k) :=
  concatenate_apply_piece (1 : Fin 2) _ h (ix2 p c) 2 (by simp) ⟨2, ![a, b]⟩ z rfl rfl (b + b) (by simp) (ix2 p k)
    (fun bb hb => by
      match bb with
      | ⟨0, _⟩ => rfl
      | ⟨1, _⟩ => exact absurd rfl hb)
    (by show b + b + k.val = c.val; omega)

end Cert.Lib.ConcatBands

end
-- ==== Proof.RefNode.lean ====
/-
  The reference's result at one node, read off its stages.

  The reference forms, for every node at once, the three rectified dense layers — of the features, of the one-hop aggregate
  times the inverse degree, of the two-hop aggregate times its square —, joins them along 384 columns and applies the
  classifier. Read at node i and class q: each layer's entry is an exact sum over the 128 contracted columns plus the
  bias, cut at zero; the scale broadcast along a row is the node's own inverse degree; column k of the joined row is entry
  k, k − 128 or k − 256 of the first, second or third layer; and the classifier's sum over 384 rows is its three bands'
  sums added up.
-/
import proofs.«110596_j5342939316785_1_alg».proof.Proof.Gen.ReferenceIdeal.Read
import proofs.«110596_j5342939316785_1_alg».proof.Proof.HopSpec
import proofs.«110596_j5342939316785_1_alg».proof.Proof.LibConcatBands
import Idealize.ShloMosaic.Lib.ValueIdx
import Idealize.ShloMosaic.PureOps.Ideal.Laws

noncomputable section

namespace Cert.ReferenceIdeal.Node

open Cert.ReferenceIdeal Cert.ReferenceIdeal.Read Idealize.ShloMosaic Idealize.ShloMosaic.ValueIdx Cert.HopSpec

/-! ## The stages' index maps at a node's coordinates -/

theorem lidx12 (i : Fin 100000) (k l : Fin 128) : lidx_main_v12 (ix2 i k) l = ix2 i l := funext fun a => Fin.ext (by match a with | ⟨0, _⟩ => rfl | ⟨1, _⟩ => rfl)
theorem ridx12 (i : Fin 100000) (k l : Fin 128) : ridx_main_v12 (ix2 i k) l = ix2 l k := funext fun a => Fin.ext (by match a with | ⟨0, _⟩ => rfl | ⟨1, _⟩ => rfl)
theorem bias14 (i : Fin 100000) (k : Fin 128) : idx_main_v13 (idx_main_v14 (ix2 i k)) = ix1 k := funext fun a => Fin.ext (by match a with | ⟨0, _⟩ => rfl)

theorem lidx30 (i : Fin 100000) (k l : Fin 128) : lidx_main_v30 (ix2 i k) l = ix2 i l := funext fun a => Fin.ext (by match a with | ⟨0, _⟩ => rfl | ⟨1, _⟩ => rfl)
theorem ridx30 (i : Fin 100000) (k l : Fin 128) : ridx_main_v30 (ix2 i k) l = ix2 l k := funext fun a => Fin.ext (by match a with | ⟨0, _⟩ => rfl | ⟨1, _⟩ => rfl)
theorem bias32 (i : Fin 100000) (k : Fin 128) : idx_main_v31 (idx_main_v32 (ix2 i k)) = ix1 k := funext fun a => Fin.ext (by match a with | ⟨0, _⟩ => rfl)

theorem lidx59 (i : Fin 100000) (k l : Fin 128) : lidx_main_v59 (ix2 i k) l = ix2 i l := funext fun a => Fin.ext (by match a with | ⟨0, _⟩ => rfl | ⟨1, _⟩ => rfl)
theorem ridx59 (i : Fin 100000) (k l : Fin 128) : ridx_main_v59 (ix2 i k) l = ix2 l k := funext fun a => Fin.ext (by match a with | ⟨0, _⟩ => rfl | ⟨1, _⟩ => rfl)
theorem bias61 (i : Fin 100000) (k : Fin 128) : idx_main_v60 (idx_main_v61 (ix2 i k)) = ix1 k := funext fun a => Fin.ext (by match a with | ⟨0, _⟩ => rfl)

theorem scale28 (i : Fin 100000) (l : Fin 128) : idx_main_v27 (idx_main_v28 (ix2 i l)) = ix1 i := funext fun a => Fin.ext (by match a with | ⟨0, _⟩ => rfl)
theorem scale57 (i : Fin 100000) (l : Fin 128) : idx_main_v56 (idx_main_v57 (ix2 i l)) = ix1 i := funext fun a => Fin.ext (by match a with | ⟨0, _⟩ => rfl)
theorem lidx65 (i : Fin 100000) (q : Fin 16) (k : Fin 384) : lidx_main_v65 (ix2 i q) k = ix2 i k := funext fun a => Fin.ext (by match a with | ⟨0, _⟩ => rfl | ⟨1, _⟩ => rfl)
theorem ridx65 (i : Fin 100000) (q : Fin 16) (k : Fin 384) : ridx_main_v65 (ix2 i q) k = ix2 k q := funext fun a => Fin.ext (by match a with | ⟨0, _⟩ => rfl | ⟨1, _⟩ => rfl)
theorem bias67 (i : Fin 100000) (q : Fin 16) : idx_main_v66 (idx_main_v67 (ix2 i q)) = ix1 q := funext fun a => Fin.ext (by match a with | ⟨0, _⟩ => rfl)

/-! ## The scaled aggregates at a node -/

/-- The one-hop aggregate times the inverse degree, at a node's row: the scale broadcast along the row is the node's own. -/
theorem scaled1 (x0 : (⟨S100000x128, .f32⟩ : BufTy).Contents (Elt Ideal)) (x1 : (⟨S2x1600000, .i32⟩ : BufTy).Contents (Elt Ideal))
    (i : Fin 100000) (l : Fin 128) :
    val_main_v29 (F := Ideal) x0 x1 (ix2 i l)
      = val_main_v26 (F := Ideal) x0 x1 (ix2 i l) * val_main_v11 (F := Ideal) x1 (ix1 i) := by
  rw [val_main_v29_apply, val_main_v28_apply, val_main_v27_apply, scale28]
  rfl

/-- The two-hop aggregate times the squared inverse degree, at a node's row. -/
theorem scaled2 (x0 : (⟨S100000x128, .f32⟩ : BufTy).Contents (Elt Ideal)) (x1 : (⟨S2x1600000, .i32⟩ : BufTy).Contents (Elt Ideal))
    (i : Fin 100000) (l : Fin 128) :
    val_main_v58 (F := Ideal) x0 x1 (ix2 i l)
      = val_main_v54 (F := Ideal) x0 x1 (ix2 i l) * val_main_v55 (F := Ideal) x1 (ix1 i) := by
  rw [val_main_v58_apply, val_main_v57_apply, val_main_v56_apply, scale57]
  rfl

/-! ## The three layers at a node -/

/-- The ego layer. -/
theorem layer_ego (x0 : (⟨S100000x128, .f32⟩ : BufTy).Contents (Elt Ideal)) (x2 : (⟨S128x128, .f32⟩ : BufTy).Contents (Elt Ideal))
    (x3 : (⟨S128, .f32⟩ : BufTy).Contents (Elt Ideal)) (i : Fin 100000) (k : Fin 128) :
    val_main_v16 (F := Ideal) x0 x2 x3 (ix2 i k)
      = hid (fun l => x0 (ix2 i l)) (fun l k => x2 (ix2 l k)) (fun k => x3 (ix1 k)) k := by
  unfold hid
  rw [val_main_v16_apply, val_main_v15_apply, val_main_v12_apply, val_main_v14_apply, val_main_v13_apply,
    val_main_call0_v0_apply, val_main_call0_cst_apply]
  simp only [lidx12, ridx12, bias14, Ideal.maximumf_def, Ideal.addf_def, Ideal.ofBits_def, Ideal.ofBits_zero_f32]

/-- The one-hop layer: the aggregate's row times the node's inverse degree. -/
theorem layer_hop1 (x0 : (⟨S100000x128, .f32⟩ : BufTy).Contents (Elt Ideal)) (x1 : (⟨S2x1600000, .i32⟩ : BufTy).Contents (Elt Ideal))
    (x4 : (⟨S128x128, .f32⟩ : BufTy).Contents (Elt Ideal)) (x5 : (⟨S128, .f32⟩ : BufTy).Contents (Elt Ideal)) (i : Fin 100000) (k : Fin 128) :
    val_main_v34 (F := Ideal) x0 x1 x4 x5 (ix2 i k)
      = hid (fun l => val_main_v26 (F := Ideal) x0 x1 (ix2 i l) * val_main_v11 (F := Ideal) x1 (ix1 i))
          (fun l k => x4 (ix2 l k)) (fun k => x5 (ix1 k)) k := by
  unfold hid
  rw [val_main_v34_apply, val_main_v33_apply, val_main_v30_apply, val_main_v32_apply, val_main_v31_apply,
    val_main_call1_v0_apply, val_main_call1_cst_apply]
  simp only [lidx30, ridx30, bias32]
  simp only [scaled1]
  simp only [Ideal.maximumf_def, Ideal.addf_def, Ideal.ofBits_def, Ideal.ofBits_zero_f32]

/-- The two-hop layer: the aggregate's row times the node's squared inverse degree. -/
theorem layer_hop2 (x0 : (⟨S100000x128, .f32⟩ : BufTy).Contents (Elt Ideal)) (x1 : (⟨S2x1600000, .i32⟩ : BufTy).Contents (Elt Ideal))
    (x6 : (⟨S128x128, .f32⟩ : BufTy).Contents (Elt Ideal)) (x7 : (⟨S128, .f32⟩ : BufTy).Contents (Elt Ideal)) (i : Fin 100000) (k : Fin 128) :
    val_main_v63 (F := Ideal) x0 x1 x6 x7 (ix2 i k)
      = hid (fun l => val_main_v54 (F := Ideal) x0 x1 (ix2 i l) * val_main_v55 (F := Ideal) x1 (ix1 i))
          (fun l k => x6 (ix2 l k)) (fun k => x7 (ix1 k)) k := by
  unfold hid
  rw [val_main_v63_apply, val_main_v62_apply, val_main_v59_apply, val_main_v61_apply, val_main_v60_apply,
    val_main_call2_v0_apply, val_main_call2_cst_apply]
  simp only [lidx59, ridx59, bias61]
  simp only [scaled2]
  simp only [Ideal.maximumf_def, Ideal.addf_def, Ideal.ofBits_def, Ideal.ofBits_zero_f32]

/-! ## The result at a node -/

/-- THE REFERENCE'S RESULT at node i and class q: the classifier's three bands on the node's three layers. -/
theorem node_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S384x16, .f32⟩ : BufTy).Contents (Elt Ideal)) (x9 : (⟨S16, .f32⟩ : BufTy).Contents (Elt Ideal))
    (i : Fin 100000) (q : Fin 16) :
    val_main_v68 (F := Ideal) x0 x1 x2 x3 x4 x5 x6 x7 x8 x9 (ix2 i q)
      = rowOut (hid (fun l => x0 (ix2 i l)) (fun l k => x2 (ix2 l k)) (fun k => x3 (ix1 k)))
          (hid (fun l => val_main_v26 (F := Ideal) x0 x1 (ix2 i l) * val_main_v11 (F := Ideal) x1 (ix1 i))
            (fun l k => x4 (ix2 l k)) (fun k => x5 (ix1 k)))
          (hid (fun l => val_main_v54 (F := Ideal) x0 x1 (ix2 i l) * val_main_v55 (F := Ideal) x1 (ix1 i))
            (fun l k => x6 (ix2 l k)) (fun k => x7 (ix1 k)))
          (fun k q => x8 (ix2 (⟨k.val, by omega⟩ : Fin 384) q)) (fun k q => x8 (ix2 (⟨128 + k.val, by omega⟩ : Fin 384) q))
          (fun k q => x8 (ix2 (⟨256 + k.val, by omega⟩ : Fin 384) q)) (fun q => x9 (ix1 q)) q := by
  rw [val_main_v68_apply, val_main_v65_apply, val_main_v67_apply, val_main_v66_apply]
  simp only [lidx65, ridx65, bias67, Ideal.addf_def]
  refine joined_eq_rowOut (fun k => val_main_v64 (F := Ideal) x0 x1 x2 x3 x4 x5 x6 x7 (ix2 i k)) (fun k q => x8 (ix2 k q))
    _ _ _ (fun q => x9 (ix1 q)) q (fun k => ?_) (fun k => ?_) (fun k => ?_)
  · unfold val_main_v64
    exact (Cert.Lib.ConcatBands.band0 (a := 100000) (b := 128) (n := 384) _ _ _ _ i k (⟨k.val, by omega⟩ : Fin 384) rfl).trans (layer_ego x0 x2 x3 i k)
  · unfold val_main_v64
    exact (Cert.Lib.ConcatBands.band1 (a := 100000) (b := 128) (n := 384) _ _ _ _ i k (⟨128 + k.val, by omega⟩ : Fin 384) rfl).trans (layer_hop1 x0 x1 x4 x5 i k)
  · unfold val_main_v64
    exact (Cert.Lib.ConcatBands.band2 (a := 100000) (b := 128) (n := 384) _ _ _ _ i k (⟨256 + k.val, by omega⟩ : Fin 384) rfl).trans (layer_hop2 x0 x1 x6 x7 i k)

end Cert.ReferenceIdeal.Node

end
-- ==== Proof.Agreement.lean ====
/-
  The kernel's node function is the reference's result.

  Both are, at node i and class q, the classifier's three bands applied to the three rectified layers of the node's rows.
  The arrays agree one by one: the features and the weights are the arguments themselves; the one- and two-hop aggregates
  the kernel stages are the reference's own stages; the kernel's scale columns are the reference's inverse degree and its
  square stood up as columns, so their entry at row i is the value the reference broadcasts along row i; and the kernel's
  three classifier blocks are rows 0 …, 128 …, 256 … of the matrix whose 384 rows the reference contracts in one sum.
-/
import proofs.«110596_j5342939316785_1_alg».proof.Proof.NodeRows
import proofs.«110596_j5342939316785_1_alg».proof.Proof.HostPrefix
import proofs.«110596_j5342939316785_1_alg».proof.Proof.RefNode
import proofs.«110596_j5342939316785_1_alg».proof.Proof.LibLayout
import Idealize.ShloMosaic.Lib.ValueLayout

noncomputable section

namespace Cert.KernelIdeal.Agreement

open Cert.KernelIdeal Cert.KernelIdeal.Gen Idealize.ShloMosaic Idealize.ShloMosaic.TcCoe Idealize.SL.Sem
open Idealize.ShloMosaic.ValueIdx Cert.HopSpec

/-- Row k of the classifier's first band is row k of the matrix. -/
theorem band0_apply (W : S384x16.Idx → EReal) (k : Fin 128) (q : Fin 16) :
    extractStridedSlice S128x16 ![0, 0] W slices_S384x16_S128x16_0_0 (ix2 k q) = W (ix2 (⟨k.val, by omega⟩ : Fin 384) q) :=
  slice2_axis0_apply 0 W _ k q ⟨k.val, by omega⟩ (Nat.zero_add _).symm

/-- Row k of the second band is row 128 + k of the matrix. -/
theorem band1_apply (W : S384x16.Idx → EReal) (k : Fin 128) (q : Fin 16) :
    extractStridedSlice S128x16 ![128, 0] W slices_S384x16_S128x16_128_0 (ix2 k q) = W (ix2 (⟨128 + k.val, by omega⟩ : Fin 384) q) :=
  slice2_axis0_apply 128 W _ k q ⟨128 + k.val, by omega⟩ rfl

/-- Row k of the third band is row 256 + k of the matrix. -/
theorem band2_apply (W : S384x16.Idx → EReal) (k : Fin 128) (q : Fin 16) :
    extractStridedSlice S128x16 ![256, 0] W slices_S384x16_S128x16_256_0 (ix2 k q) = W (ix2 (⟨256 + k.val, by omega⟩ : Fin 384) q) :=
  slice2_axis0_apply 256 W _ k q ⟨256 + k.val, by omega⟩ rfl

/-- A vector stood up as a column, at row i: the vector's entry i. -/
theorem column_apply (v : S100000.Idx → EReal) (i : Fin 100000) :
    shapeCast S100000x1 v shapeCasts_S100000_S100000x1 (ix2 i (0 : Fin 1)) = v (ix1 i) :=
  Cert.LibLayout.shapeCast_a_a1_apply v _ i 0

/-- THE NODE FUNCTION of arrays that are the reference's stages (or the arguments, or columns and bands of them) is the
    reference's result at that node. The arrays are variables here: what is used of them is only which stage each is. -/
theorem node_agree (A0 A1 A2 : S100000x128.Idx → EReal) (A3 A4 : S100000x1.Idx → EReal)
    (A5 : S128x128.Idx → EReal) (A6 : S128.Idx → EReal) (A7 : S128x128.Idx → EReal) (A8 : S128.Idx → EReal)
    (A9 : S128x128.Idx → EReal) (A10 : S128.Idx → EReal) (A11 A12 A13 : S128x16.Idx → EReal) (A14 : S16.Idx → EReal)
    (x0 : S100000x128.Idx → EReal) (x1 : S2x1600000.Idx → BitVec 32) (x2 : S128x128.Idx → EReal) (x3 : S128.Idx → EReal)
    (x4 : S128x128.Idx → EReal) (x5 : S128.Idx → EReal) (x6 : S128x128.Idx → EReal) (x7 : S128.Idx → EReal)
    (x8 : S384x16.Idx → EReal) (x9 : S16.Idx → EReal)
    (h0 : A0 = x0) (h1 : A1 = Cert.ReferenceIdeal.Read.val_main_v26 (F := Ideal) x0 x1) (h2 : A2 = Cert.ReferenceIdeal.Read.val_main_v54 (F := Ideal) x0 x1)
    (h3 : A3 = shapeCast S100000x1 (Cert.ReferenceIdeal.Read.val_main_v11 (F := Ideal) x1) shapeCasts_S100000_S100000x1)
    (h4 : A4 = shapeCast S100000x1 (Cert.ReferenceIdeal.Read.val_main_v55 (F := Ideal) x1) shapeCasts_S100000_S100000x1)
    (h5 : A5 = x2) (h6 : A6 = x3) (h7 : A7 = x4) (h8 : A8 = x5) (h9 : A9 = x6) (h10 : A10 = x7)
    (h11 : A11 = extractStridedSlice S128x16 ![0, 0] x8 slices_S384x16_S128x16_0_0)
    (h12 : A12 = extractStridedSlice S128x16 ![128, 0] x8 slices_S384x16_S128x16_128_0)
    (h13 : A13 = extractStridedSlice S128x16 ![256, 0] x8 slices_S384x16_S128x16_256_0)
    (h14 : A14 = x9) (i : Fin 100000) (q : Fin 16) :
    Cert.KernelIdeal.Rows.nodeOut A0 A1 A2 A3 A4 A5 A6 A7 A8 A9 A10 A11 A12 A13 A14 i q
      = Cert.ReferenceIdeal.Read.val_main_v68 (F := Ideal) x0 x1 x2 x3 x4 x5 x6 x7 x8 x9 (ix2 i q) := by
  subst h0 h1 h2 h3 h4 h5 h6 h7 h8 h9 h10 h11 h12 h13 h14
  rw [Cert.ReferenceIdeal.Node.node_eq]
  unfold Cert.KernelIdeal.Rows.nodeOut
  simp only [band0_apply, band1_apply, band2_apply, column_apply]

variable (m : (ℓ : Loc nD τ sig) → Buf (Elt Ideal) ℓ)

/-- THE TWO RESULTS ARE ONE ARRAY: the kernel's node function of what the region finds is the reference's last stage of the
    same arguments. -/
theorem result_eq (c : Dev nD) :
    Cert.KernelIdeal.Rows.result m c
      = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  obtain ⟨i, q, rfl⟩ : ∃ (i : Fin 100000) (q : Fin 16), j = ix2 i q := ⟨j 0, j 1, eq_ix2 (n0 := 100000) (n1 := 16) j⟩
  exact (Cert.KernelIdeal.Rows.result_apply m c i q).trans
    (node_agree (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5))
      (V m c (Pipeline.arrRef spec0 6)) (V m c (Pipeline.arrRef spec0 7)) (V m c (Pipeline.arrRef spec0 8))
      (V m c (Pipeline.arrRef spec0 9)) (V m c (Pipeline.arrRef spec0 10)) (V m c (Pipeline.arrRef spec0 11))
      (V m c (Pipeline.arrRef spec0 12)) (V m c (Pipeline.arrRef spec0 13)) (V m c (Pipeline.arrRef spec0 14))
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (V_main_arg0 m c) (Cert.KernelIdeal.Prefix.v21_eq m c) (Cert.KernelIdeal.Prefix.v31_eq m c)
      (Cert.KernelIdeal.Prefix.v32_eq m c) (Cert.KernelIdeal.Prefix.v34_eq m c)
      (V_main_arg2 m c) (V_main_arg3 m c) (V_main_arg4 m c) (V_main_arg5 m c) (V_main_arg6 m c) (V_main_arg7 m c)
      (Cert.KernelIdeal.Prefix.v35_eq m c) (Cert.KernelIdeal.Prefix.v36_eq m c) (Cert.KernelIdeal.Prefix.v37_eq m c)
      (V_main_arg9 m c) i q)

end Cert.KernelIdeal.Agreement

end
-- ==== Proof.lean ====
/-
  The fused hop network against its reference, over the extended reals.

  Both programs aggregate the node features over the edges once and twice and count each node's edges, on the host and by
  the same operations. From there the kernel works on blocks of 1000 nodes: for each node it forms three rectified dense
  layers — of the node's features, of its one-hop aggregate times the inverse degree, of its two-hop aggregate times the
  squared inverse degree — and adds three partial classifier products, one per band of 128 rows of the classifier matrix,
  and the bias. The reference forms the same three layers for all nodes at once, joins them along 384 columns and applies
  the classifier in one product.

  At the ideal values a matrix product is an exact sum, a change of float format is the identity, and a broadcast scale
  is the node's own; so at node i and class q both results are the same expression in the node's rows (NodeRows for the
  kernel's array, RefNode for the reference's stages, Agreement for the arrays' identification), except that the
  reference's one sum over 384 rows is the kernel's three sums over 128 added up — equal because addition of extended
  reals is associative and commutative, infinities included. No input needs to be finite for that, so the
  precondition is not opened. The kernel's idealization rewrote nothing, so there is nothing to preserve.
-/
import proofs.«110596_j5342939316785_1_alg».proof.Defs
import proofs.«110596_j5342939316785_1_alg».proof.Proof.Gen.Kernel
import proofs.«110596_j5342939316785_1_alg».proof.Proof.Gen.Kernel.Frame
import proofs.«110596_j5342939316785_1_alg».proof.Proof.Gen.KernelIdeal
import proofs.«110596_j5342939316785_1_alg».proof.Proof.Gen.KernelIdeal.Frame
import proofs.«110596_j5342939316785_1_alg».proof.Proof.Gen.KernelIdeal.Value
import proofs.«110596_j5342939316785_1_alg».proof.Proof.Gen.ReferenceIdeal
import proofs.«110596_j5342939316785_1_alg».proof.Proof.Gen.ReferenceIdeal.Run
import proofs.«110596_j5342939316785_1_alg».proof.Proof.Gen.ReferenceIdeal.Read
import proofs.«110596_j5342939316785_1_alg».proof.Proof.Gen.Pre_finite_inputs
import proofs.«110596_j5342939316785_1_alg».proof.Proof.NodeRows
import proofs.«110596_j5342939316785_1_alg».proof.Proof.Agreement
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at its node function of what the region
    finds, the reference's at its last stage of the same arguments: one array. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq]
  obtain ⟨h0, h1, h2, h3, h4, h5, h6, h7, h8, h9⟩ := hagree c
  rw [h0, h1, h2, h3, h4, h5, h6, h7, h8, h9]
  exact (Cert.KernelIdeal.Agreement.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
